-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x8192 .f32) (main_arg1 : FVec F S8192x128 .f32) (main_arg2 : FVec F S128x128 .f32) (main_arg3 : FVec F S128 .f32) (main_arg4 : FVec F S128x128 .f32) (main_arg5 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S512x8192 : Shape := ⟨2, ![512, 8192]⟩
abbrev S512x128 : Shape := ⟨2, ![512, 128]⟩

abbrev nBuf : Space → Nat
  | .hbm => 12
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S8192x128, .f32⟩
  | .hbm, ⟨9, _⟩ => ⟨S128x128, .f32⟩
  | .hbm, ⟨10, _⟩ => ⟨S1x128, .f32⟩
  | .hbm, ⟨11, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S8192x128, .f32⟩
  | .local _ .vmem, ⟨3, _⟩ => ⟨S128x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x8192, .f32⟩
  | .local _ .vmem, ⟨8, _⟩ => ⟨S512x8192, .f32⟩
  | .local _ .vmem, ⟨9, _⟩ => ⟨S8192x128, .f32⟩
  | .local _ .vmem, ⟨10, _⟩ => ⟨S128x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  shapeCasts_S128_S1x128 : S128.ShapeCasts S1x128
  inb_S512x8192_S512x8192_0_0 : ∀ a, (![0, 0] : Fin 2 → Nat) a + S512x8192.size a ≤ S512x8192.size a
  h_S512x8192 : 0 < S512x8192.numel
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S8192x128_S8192x128 : S8192x128.ShapeCasts S8192x128
  dot_S512x8192_S8192x128_S512x128_1_0_0_1_n_n_wf : DotDims.WF S512x8192 S8192x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .f32 = 32 ∨ (Rect.block (s := S8192x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)

variable [Facts₀]

def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x128, .f32⟩
  | .hbm, ⟨7, _⟩ => ⟨S128x128, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S128x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.Spec.lean ====
/-
  A two-layer dense graph convolution on the extended reals, entry by entry.

  One layer takes an adjacency block A (M rows, 8192 columns), features H (8192 x 128), a weight matrix already
  transposed Wt (128 x 128) and a bias row (1 x 128), and returns the M x 128 array whose entry (r, c) is

      sum over l of (sum over k of A (r, k) * H (k, l)) * Wt (l, c)   +   bias (0, c).

  The network is the second layer applied to the rectified first layer, with the same adjacency:
  layer A (relu (layer A X W1^T b1)) W2^T b2.  Nothing here is rearranged: the sums are the ones both programs
  compute, in the same nesting, so no law of the extended reals beyond equality of equal terms is needed and no
  finiteness hypothesis is used.

  Entry (r, c) of a layer depends on A only through row r.  Hence the layer of a block of consecutive rows of A is
  the corresponding block of rows of the layer of A: this is what lets a kernel that walks A in row blocks be
  compared with one product over the whole of A.
-/
import proofs.«157281_g77017353552368_cont_sun_m_946_3_alg».proof.Proof.LibRowColumn
import Idealize.ShloMosaic.PureOps.Ideal
import Idealize.ShloMosaic.Lib.ValueIdx

noncomputable section

namespace Cert.Gcn

open Idealize.ShloMosaic Idealize.ShloMosaic.ValueIdx Cert.Lib.RowColumn

/-- One layer before its activation: (A H) Wt plus the bias row, over M rows of the adjacency. -/
def affine {M : Nat} (A : (⟨2, ![M, 8192]⟩ : Shape).Idx → EReal) (H : (⟨2, ![8192, 128]⟩ : Shape).Idx → EReal)
    (Wt : (⟨2, ![128, 128]⟩ : Shape).Idx → EReal) (brow : (⟨2, ![1, 128]⟩ : Shape).Idx → EReal) :
    (⟨2, ![M, 128]⟩ : Shape).Idx → EReal :=
  fun i => rowsTimes (M := M) (K := 128) (N := 128) (rowsTimes (M := M) (K := 8192) (N := 128) A H) Wt i
    + brow (ix2 (0 : Fin 1) (i 1))

/-- The rectifier, entry by entry: the larger of the entry and the real number the f32 zero word denotes. -/
def relu {s : Shape} (H : s.Idx → EReal) : s.Idx → EReal :=
  fun i => max (H i) (Ideal.ofBits .f32 0x00000000#32)

/-- A square matrix with rows and columns exchanged. -/
def transposed (W : (⟨2, ![128, 128]⟩ : Shape).Idx → EReal) : (⟨2, ![128, 128]⟩ : Shape).Idx → EReal :=
  fun i => W (ix2 (i 1) (i 0))

/-- A vector of 128 entries laid out as one row. -/
def rowOf (b : (⟨1, ![128]⟩ : Shape).Idx → EReal) : (⟨2, ![1, 128]⟩ : Shape).Idx → EReal :=
  fun i => b (ix1 (i 1))

/-- The two-layer network: out = A relu(A X W1^T + b1) W2^T + b2. -/
def gcn (A : (⟨2, ![8192, 8192]⟩ : Shape).Idx → EReal) (X : (⟨2, ![8192, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![8192, 128]⟩ : Shape).Idx → EReal :=
  affine A (relu (affine A X (transposed W1) (rowOf b1))) (transposed W2) (rowOf b2)

/-- The layer at an entry, written out: the double sum plus the bias entry of the column. -/
theorem affine_apply {M : Nat} (A : (⟨2, ![M, 8192]⟩ : Shape).Idx → EReal) (H : (⟨2, ![8192, 128]⟩ : Shape).Idx → EReal)
    (Wt : (⟨2, ![128, 128]⟩ : Shape).Idx → EReal) (brow : (⟨2, ![1, 128]⟩ : Shape).Idx → EReal)
    (i : (⟨2, ![M, 128]⟩ : Shape).Idx) :
    affine A H Wt brow i
      = (∑ l : Fin 128, (∑ k : Fin 8192, A (ix2 (i 0) k) * H (ix2 k l)) * Wt (ix2 l (i 1))) + brow (ix2 (0 : Fin 1) (i 1)) := rfl

/-- A layer's entry (r, c) sees the adjacency only through its row r: two adjacency arrays that agree on that row,
    read at the same column c, give the same entry — whatever their numbers of rows. -/
theorem affine_of_row {M M' : Nat} (A : (⟨2, ![M, 8192]⟩ : Shape).Idx → EReal) (A' : (⟨2, ![M', 8192]⟩ : Shape).Idx → EReal)
    (H : (⟨2, ![8192, 128]⟩ : Shape).Idx → EReal) (Wt : (⟨2, ![128, 128]⟩ : Shape).Idx → EReal)
    (brow : (⟨2, ![1, 128]⟩ : Shape).Idx → EReal)
    (i : (⟨2, ![M, 128]⟩ : Shape).Idx) (i' : (⟨2, ![M', 128]⟩ : Shape).Idx)
    (hrow : ∀ k : Fin 8192, A (ix2 (i 0) k) = A' (ix2 (i' 0) k)) (hcol : i 1 = i' 1) :
    affine A H Wt brow i = affine A' H Wt brow i' := by
  rw [affine_apply, affine_apply, hcol]
  simp only [hrow]

end Cert.Gcn

end
-- ==== Proof.BlockValue.lean ====
/-
  What one grid step of either kernel leaves in its output block, on the extended reals.

  A step holds 512 rows of the adjacency (512 x 8192), the whole feature array (8192 x 128), the transposed weights
  (128 x 128) and the bias as one row (1 x 128).  It multiplies the adjacency rows by the features into a zero
  accumulator, multiplies the result by the transposed weights into a zero accumulator, and adds the bias row
  broadcast down the 512 rows; the first kernel then takes the maximum with zero.  A matrix product into the zero
  accumulator is the row-by-column product (the accumulator contributes 0 + ...), a cast of a shape to itself is the
  identity, and the broadcast row at (p, c) is the row at (0, c).  So the stored block is the layer of Spec.lean over
  512 rows — rectified, for the first kernel.
-/
import proofs.«157281_g77017353552368_cont_sun_m_946_3_alg».proof.Proof.Gen.KernelIdeal.Skeleton
import proofs.«157281_g77017353552368_cont_sun_m_946_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Kernel

open Cert.KernelIdeal Cert.KernelIdeal.Gen Idealize.ShloMosaic Idealize.ShloMosaic.ValueIdx Cert.Lib.RowColumn Cert.Gcn

/-! ## The two contractions' operand indices: rows of the left operand against columns of the right -/

theorem adjacency_lhs_row (i : S512x128.Idx) (q : dot_S512x8192_S8192x128_S512x128_1_0_0_1_n_n.contr.Idx) :
    (dot_S512x8192_S8192x128_S512x128_1_0_0_1_n_n.lhsIdx i q 0).val = (i 0).val := by
  unfold DotDims.lhsIdx
  rw [dif_neg (show ¬(0 : Fin S512x8192.rank) ∈ dot_S512x8192_S8192x128_S512x128_1_0_0_1_n_n.lhsBatch by decide), dif_pos (show (0 : Fin S512x8192.rank) ∈ dot_S512x8192_S8192x128_S512x128_1_0_0_1_n_n.lhsNonContracting by decide)]
  rfl
theorem adjacency_lhs_col (i : S512x128.Idx) (q : dot_S512x8192_S8192x128_S512x128_1_0_0_1_n_n.contr.Idx) :
    (dot_S512x8192_S8192x128_S512x128_1_0_0_1_n_n.lhsIdx i q 1).val = (q ⟨0, by decide⟩).val :=
  dot_S512x8192_S8192x128_S512x128_1_0_0_1_n_n.lhsIdx_val_of_single rfl i q
theorem adjacency_rhs_row (i : S512x128.Idx) (q : dot_S512x8192_S8192x128_S512x128_1_0_0_1_n_n.contr.Idx) :
    (dot_S512x8192_S8192x128_S512x128_1_0_0_1_n_n.rhsIdx i q 0).val = (q ⟨0, by decide⟩).val :=
  dot_S512x8192_S8192x128_S512x128_1_0_0_1_n_n.rhsIdx_val_of_single rfl i q
theorem adjacency_rhs_col (i : S512x128.Idx) (q : dot_S512x8192_S8192x128_S512x128_1_0_0_1_n_n.contr.Idx) :
    (dot_S512x8192_S8192x128_S512x128_1_0_0_1_n_n.rhsIdx i q 1).val = (i 1).val := by
  unfold DotDims.rhsIdx
  rw [dif_neg (show ¬(1 : Fin S8192x128.rank) ∈ dot_S512x8192_S8192x128_S512x128_1_0_0_1_n_n.rhsBatch by decide), dif_pos (show (1 : Fin S8192x128.rank) ∈ dot_S512x8192_S8192x128_S512x128_1_0_0_1_n_n.rhsNonContracting by decide)]
  rfl

theorem weights_lhs_row (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem weights_lhs_col (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem weights_rhs_row (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem weights_rhs_col (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-! ## The body's operations, one at a time -/

/-- The adjacency rows against the features, into the zero accumulator: the row-by-column product. -/
theorem matmul_adjacency (p : Option ContractPrecision) (x0 : FVec Ideal S512x8192 .f32) (x1 : FVec Ideal S8192x128 .f32) :
    matmul dot_S512x8192_S8192x128_S512x128_1_0_0_1_n_n p x0 x1 (constant (F := Ideal) S512x128 .f32 0x00000000#32)
      = rowsTimes (M := 512) (K := 8192) (N := 128) x0 x1 :=
  matmul_zero_eq_rowsTimes (M := 512) (K := 8192) (N := 128) dot_S512x8192_S8192x128_S512x128_1_0_0_1_n_n rfl rfl
    adjacency_lhs_row adjacency_lhs_col adjacency_rhs_row adjacency_rhs_col p x0 x1

/-- The support rows against the transposed weights, into the zero accumulator: the row-by-column product. -/
theorem matmul_weights (p : Option ContractPrecision) (s : FVec Ideal S512x128 .f32) (x2 : FVec Ideal S128x128 .f32) :
    matmul dot_S512x128_S128x128_S512x128_1_0_0_1_n_n p s x2 (constant (F := Ideal) S512x128 .f32 0x00000000#32)
      = rowsTimes (M := 512) (K := 128) (N := 128) s x2 :=
  matmul_zero_eq_rowsTimes (M := 512) (K := 128) (N := 128) dot_S512x128_S128x128_S512x128_1_0_0_1_n_n rfl rfl
    weights_lhs_row weights_lhs_col weights_rhs_row weights_rhs_col p s x2

/-- The bias row broadcast down the block, at (p, c), is the row at (0, c). -/
theorem bias_apply (x3 : FVec Ideal S1x128 .f32) (j : S512x128.Idx) :
    broadcastTo S512x128 x3 broadcasts_S1x128_S512x128 j = x3 (ix2 (0 : Fin 1) (j 1)) := by
  obtain ⟨p, q, rfl⟩ : ∃ (p : Fin 512) (q : Fin 128), j = ix2 p q := ⟨j 0, j 1, eq_ix2 j⟩
  exact broadcastTo_1b_ab_apply x3 broadcasts_S1x128_S512x128 p q

/-! ## The stored blocks -/

/-- The second kernel stores the layer of its four blocks over 512 rows. -/
theorem payload_second (x0 : Vec Ideal S512x8192 .f32) (x1 : Vec Ideal S8192x128 .f32) (x2 : Vec Ideal S128x128 .f32)
    (x3 : Vec Ideal S1x128 .f32) :
    k1_pay1 (F := Ideal) x0 x1 x2 x3 = affine (M := 512) x0 x1 x2 x3 := by
  unfold k1_pay1
  show addf (matmul dot_S512x128_S128x128_S512x128_1_0_0_1_n_n (some .fp32)
        (matmul dot_S512x8192_S8192x128_S512x128_1_0_0_1_n_n none x0 (shapeCast S8192x128 x1 shapeCasts_S8192x128_S8192x128) (constant (F := Ideal) S512x128 .f32 0x00000000#32))
        (shapeCast S128x128 x2 shapeCasts_S128x128_S128x128) (constant (F := Ideal) S512x128 .f32 0x00000000#32))
      (broadcastTo S512x128 (shapeCast S1x128 x3 shapeCasts_S1x128_S1x128) broadcasts_S1x128_S512x128) = _
  rw [shapeCast_self, shapeCast_self, shapeCast_self, matmul_adjacency, matmul_weights]
  funext j
  rw [addf_apply, bias_apply]
  rfl

/-- The first kernel stores the rectified layer of its four blocks over 512 rows. -/
theorem payload_first (x0 : Vec Ideal S512x8192 .f32) (x1 : Vec Ideal S8192x128 .f32) (x2 : Vec Ideal S128x128 .f32)
    (x3 : Vec Ideal S1x128 .f32) :
    k0_pay1 (F := Ideal) x0 x1 x2 x3 = relu (affine (M := 512) x0 x1 x2 x3) := by
  unfold k0_pay1
  show maximumf (addf (matmul dot_S512x128_S128x128_S512x128_1_0_0_1_n_n (some .fp32)
        (matmul dot_S512x8192_S8192x128_S512x128_1_0_0_1_n_n none x0 x1 (constant (F := Ideal) S512x128 .f32 0x00000000#32))
        (shapeCast S128x128 x2 shapeCasts_S128x128_S128x128) (constant (F := Ideal) S512x128 .f32 0x00000000#32))
      (broadcastTo S512x128 (shapeCast S1x128 x3 shapeCasts_S1x128_S1x128) broadcasts_S1x128_S512x128))
    (broadcast S512x128 (Scalar.ofBits (F := Ideal) .f32 0x00000000#32)) = _
  rw [shapeCast_self, shapeCast_self, matmul_adjacency, matmul_weights]
  funext j
  rw [maximumf_apply, addf_apply, bias_apply, broadcast_apply]
  rfl

end Cert.Gcn.Kernel

end
-- ==== Proof.RegionArrays.lean ====
/-
  From blocks to whole arrays: what each of the two kernels leaves in its output array.

  Each kernel walks the adjacency in 16 blocks of 512 rows.  At step t it writes back rows 512 t .. 512 t + 511 of
  its output, computed from the adjacency's rows 512 t .. 512 t + 511 and from the whole of its three other
  operands (they are fetched once and stay).  By BlockValue.lean the written block is the layer over those 512 rows,
  and by Spec.lean a layer's entry depends on the adjacency only through its own row; so the written block is block t
  of the layer over all 8192 rows.  The 16 blocks are disjoint and cover the output, so after the last step the
  output array is that layer — rectified for the first kernel.  Everything is stated for arbitrary contents V of the
  buffers at the kernel's entry; which contents those are is the business of the run.
-/
import proofs.«157281_g77017353552368_cont_sun_m_946_3_alg».proof.Proof.Gen.KernelIdeal.Frame
import proofs.«157281_g77017353552368_cont_sun_m_946_3_alg».proof.Proof.BlockValue
import Idealize.ShloMosaic.Lib.Pipeline.Value
import Idealize.ShloMosaic.Lib.ValueIdx

set_option maxRecDepth 16384

noncomputable section

namespace Cert.Gcn.Kernel

open Cert.KernelIdeal Cert.KernelIdeal.Gen Idealize.ShloMosaic Idealize.ShloMosaic.TcCoe Idealize.ShloMosaic.ValueIdx
open Idealize.SL Idealize.SL.Sem Cert.Gcn
open Idealize.ShloMosaic.Pipeline (Dat Cfg Window)

/-- A block's origin inside its staging buffer: both offsets zero. -/
theorem origin : (![0, 0] : Fin 2 → Nat) = fun _ => 0 := funext fun a => by fin_cases a <;> rfl

variable (V : (c : Dev nD) → (b : Ref sig .tc) → Buf (Elt Ideal) ((c : Thread nD τ).loc b))

/-! ## Kernel 0 -/

/-- The printed index maps of kernel 0, decided over its 16 grid steps: the adjacency's block moves down with the
    output's, always at column block 0; the features, the weights and the bias row stay at block (0, 0); the output's
    row block is at most 15 and its column block is 0. -/
theorem index_facts0 : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every one of the 16 row blocks of the output is some grid step's. -/
theorem index_onto0 : ∀ q : Fin 16, ∃ t : Fin cfg0.N, win0_4.index t = ![q.val, 0] :=
  (by decide +kernel : ∀ q : Fin 16, ∃ t : Fin grid0.N, win0_4.index t = ![q.val, 0])

/-- What grid step t of kernel 0 writes back is block t of the rectified layer of the arrays the kernel was entered with:
    the step's adjacency block is rows 512 t .. 512 t + 511 of the adjacency, its other three blocks are the whole
    arrays, and a layer's entry sees the adjacency only through its own row. -/
theorem flushed0 (c : Dev nD) (t : Fin cfg0.N) :
    (dat0 (F := Ideal) V c).flushed 4 t
      = ((cfg0.win 4).blk t).view.read (Elt Ideal) (relu (affine (M := 8192) (V c main_arg0) (V c main_arg1) (V c main_v0) (V c main_v1))) := by
  show (cfg0.win 4).cut (grid0.coords t) ((dat0 (F := Ideal) V c).after 4 t) = _
  rw [after0_4]
  unfold out0_4
  rw [View.canon_unit_zero origin]
  simp only [View.ld_unit_zero (S := S512x8192) origin, View.ld_unit_zero (S := S8192x128) origin,
    View.ld_unit_zero (S := S128x128) origin, View.ld_unit_zero (S := S1x128) origin]
  rw [payload_first]
  obtain ⟨e00, e01, e10, e11, e20, e21, e30, e31, e40, e41⟩ := index_facts0 t
  have h1 : iblk0 V c 1 t = V c main_arg1 := funext fun y => congrArg (V c main_arg1) (by
    show ((cfg0.win 1).blk t).view.emb y = y
    funext a; apply Fin.ext
    match a with
    | ⟨0, _⟩ => show win0_1.index t (0 : Fin 2) * 8192 + 1 * (y 0).val = (y 0).val; omega
    | ⟨1, _⟩ => show win0_1.index t (1 : Fin 2) * 128 + 1 * (y 1).val = (y 1).val; omega)
  have h2 : iblk0 V c 2 t = V c main_v0 := funext fun y => congrArg (V c main_v0) (by
    show ((cfg0.win 2).blk t).view.emb y = y
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega)
  have h3 : iblk0 V c 3 t = V c main_v1 := funext fun y => congrArg (V c main_v1) (by
    show ((cfg0.win 3).blk t).view.emb y = y
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega)
  rw [h1, h2, h3]
  funext j
  show relu (affine (M := 512) (iblk0 V c 0 t) (V c main_arg1) (V c main_v0) (V c main_v1)) j
    = relu (affine (M := 8192) (V c main_arg0) (V c main_arg1) (V c main_v0) (V c main_v1)) (((cfg0.win 4).blk t).view.emb j)
  unfold relu
  refine congrArg (fun x => max x (Ideal.ofBits .f32 0x00000000#32)) ?_
  refine affine_of_row (M := 512) (M' := 8192) (iblk0 V c 0 t) (V c main_arg0) (V c main_arg1) (V c main_v0) (V c main_v1) j
    (((cfg0.win 4).blk t).view.emb j) (fun k => ?_) ?_
  · show V c main_arg0 (((cfg0.win 0).blk t).view.emb (ix2 (j 0) k)) = V c main_arg0 (ix2 ((((cfg0.win 4).blk t).view.emb j) 0) k)
    refine congrArg (V c main_arg0) ?_
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 8192 + 1 * k.val = k.val; omega
  · apply Fin.ext
    show (j 1).val = win0_4.index t (1 : Fin 2) * 128 + 1 * (j 1).val
    omega

/-- An entry of the output array lies in step t's block exactly when each coordinate lies in the block's range. -/
theorem mem_block0 (t : Fin cfg0.N) (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v2).slice (win0_4.rect t)).set ↔ _
  rw [View.set_slice_whole, Rect.mem_set_unit]
  exact Iff.rfl

/-- The 16 blocks of 512 rows cover all 8192 rows: entry (r, c) lies in the block of step r / 512, and every step
    writes its block back. -/
theorem cover0 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  obtain ⟨t, ht⟩ := index_onto0 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_block0]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- After kernel 0's 16 steps its output array holds the rectified layer of the arrays it was entered with. -/
theorem array0 (c : Dev nD) :
    (dat0 (F := Ideal) V c).arrAt 4 cfg0.N = relu (affine (M := 8192) (V c main_arg0) (V c main_arg1) (V c main_v0) (V c main_v1)) :=
  (dat0 (F := Ideal) V c).arrAt_eq_of_cover 4 _ (fun t _ => flushed0 V c t) cover0

/-! ## Kernel 1 -/

/-- The printed index maps of kernel 1, decided over its 16 grid steps: the adjacency's block moves down with the
    output's, always at column block 0; the features, the weights and the bias row stay at block (0, 0); the output's
    row block is at most 15 and its column block is 0. -/
theorem index_facts1 : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 15 ∧ win1_4.index t (1 : Fin 2) = 0 :=
  (by decide +kernel : ∀ t : Fin grid1.N, _)

/-- Every one of the 16 row blocks of the output is some grid step's. -/
theorem index_onto1 : ∀ q : Fin 16, ∃ t : Fin cfg1.N, win1_4.index t = ![q.val, 0] :=
  (by decide +kernel : ∀ q : Fin 16, ∃ t : Fin grid1.N, win1_4.index t = ![q.val, 0])

/-- What grid step t of kernel 1 writes back is block t of the layer of the arrays the kernel was entered with:
    the step's adjacency block is rows 512 t .. 512 t + 511 of the adjacency, its other three blocks are the whole
    arrays, and a layer's entry sees the adjacency only through its own row. -/
theorem flushed1 (c : Dev nD) (t : Fin cfg1.N) :
    (dat1 (F := Ideal) V c).flushed 4 t
      = ((cfg1.win 4).blk t).view.read (Elt Ideal) (affine (M := 8192) (V c main_arg0) (V c main_v2) (V c main_v3) (V c main_v4)) := by
  show (cfg1.win 4).cut (grid1.coords t) ((dat1 (F := Ideal) V c).after 4 t) = _
  rw [after1_4]
  unfold out1_4
  rw [View.canon_unit_zero origin]
  simp only [View.ld_unit_zero (S := S512x8192) origin, View.ld_unit_zero (S := S8192x128) origin,
    View.ld_unit_zero (S := S128x128) origin, View.ld_unit_zero (S := S1x128) origin]
  rw [payload_second]
  obtain ⟨e00, e01, e10, e11, e20, e21, e30, e31, e40, e41⟩ := index_facts1 t
  have h1 : iblk1 V c 1 t = V c main_v2 := funext fun y => congrArg (V c main_v2) (by
    show ((cfg1.win 1).blk t).view.emb y = y
    funext a; apply Fin.ext
    match a with
    | ⟨0, _⟩ => show win1_1.index t (0 : Fin 2) * 8192 + 1 * (y 0).val = (y 0).val; omega
    | ⟨1, _⟩ => show win1_1.index t (1 : Fin 2) * 128 + 1 * (y 1).val = (y 1).val; omega)
  have h2 : iblk1 V c 2 t = V c main_v3 := funext fun y => congrArg (V c main_v3) (by
    show ((cfg1.win 2).blk t).view.emb y = y
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega)
  have h3 : iblk1 V c 3 t = V c main_v4 := funext fun y => congrArg (V c main_v4) (by
    show ((cfg1.win 3).blk t).view.emb y = y
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega)
  rw [h1, h2, h3]
  funext j
  show affine (M := 512) (iblk1 V c 0 t) (V c main_v2) (V c main_v3) (V c main_v4) j
    = affine (M := 8192) (V c main_arg0) (V c main_v2) (V c main_v3) (V c main_v4) (((cfg1.win 4).blk t).view.emb j)

  refine affine_of_row (M := 512) (M' := 8192) (iblk1 V c 0 t) (V c main_arg0) (V c main_v2) (V c main_v3) (V c main_v4) j
    (((cfg1.win 4).blk t).view.emb j) (fun k => ?_) ?_
  · show V c main_arg0 (((cfg1.win 0).blk t).view.emb (ix2 (j 0) k)) = V c main_arg0 (ix2 ((((cfg1.win 4).blk t).view.emb j) 0) k)
    refine congrArg (V c main_arg0) ?_
    funext a; apply Fin.ext
    match a with
    | ⟨0, _⟩ => show win1_0.index t (0 : Fin 2) * 512 + 1 * (j 0).val = win1_4.index t (0 : Fin 2) * 512 + 1 * (j 0).val; omega
    | ⟨1, _⟩ => show win1_0.index t (1 : Fin 2) * 8192 + 1 * k.val = k.val; omega
  · apply Fin.ext
    show (j 1).val = win1_4.index t (1 : Fin 2) * 128 + 1 * (j 1).val
    omega

/-- An entry of the output array lies in step t's block exactly when each coordinate lies in the block's range. -/
theorem mem_block1 (t : Fin cfg1.N) (i : S8192x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v5).slice (win1_4.rect t)).set ↔ _
  rw [View.set_slice_whole, Rect.mem_set_unit]
  exact Iff.rfl

/-- The 16 blocks of 512 rows cover all 8192 rows: entry (r, c) lies in the block of step r / 512, and every step
    writes its block back. -/
theorem cover1 (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  obtain ⟨t, ht⟩ := index_onto1 ⟨(i 0).val / 512, by omega⟩
  have q0 : win1_4.index t (0 : Fin 2) = (i 0).val / 512 := congrFun ht 0
  have q1 : win1_4.index t (1 : Fin 2) = 0 := congrFun ht 1
  refine ⟨t, flush1_4 t, ?_⟩
  rw [mem_block1]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 128 ≤ (i 1).val ∧ (i 1).val < win1_4.index t (1 : Fin 2) * 128 + 128; omega

/-- After kernel 1's 16 steps its output array holds the layer of the arrays it was entered with. -/
theorem array1 (c : Dev nD) :
    (dat1 (F := Ideal) V c).arrAt 4 cfg1.N = affine (M := 8192) (V c main_arg0) (V c main_v2) (V c main_v3) (V c main_v4) :=
  (dat1 (F := Ideal) V c).arrAt_eq_of_cover 4 _ (fun t _ => flushed1 V c t) cover1

end Cert.Gcn.Kernel

end
-- ==== Proof.KernelRun.lean ====
/-
  The kernel program's run, and what its result buffer ends holding.

  The program is four segments: the host transposes the first layer's weights and lays its bias out as a row; the
  first kernel runs; the host does the same for the second layer; the second kernel runs.  The buffer contents at
  the four boundaries are a fold from the launch memory.  Read backwards from the result:

    the result is the second kernel's output array: the layer of the arrays it was entered with — the adjacency
    (untouched since launch), the first kernel's output (untouched by the second host stretch), the transposed
    second weights and the second bias as a row (written by the second host stretch from launch arguments);

    the first kernel's output array is the rectified layer of the arrays it was entered with — the adjacency and
    the features (untouched since launch), the transposed first weights and the first bias as a row.

  Composed, the result is the two-layer network of Spec.lean of the six launch arguments.
-/
import proofs.«157281_g77017353552368_cont_sun_m_946_3_alg».proof.Proof.Gen.KernelIdeal.Frame
import proofs.«157281_g77017353552368_cont_sun_m_946_3_alg».proof.Proof.RegionArrays
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gcn.Kernel

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.Gcn

/-! ## The run, with the result buffer at the last boundary's contents -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault; the
    result buffer then holds the contents of the last segment boundary at that buffer, and the six arguments hold
    what they held at launch.  (The four segments, each region's entry and exit contents and the launch are the
    generated ones; the final thread state holds every unscoped buffer at the last boundary's contents, and the
    result buffer is one of them.) -/
theorem run_boundary : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Run

/-! ## The last boundary's contents at the result buffer, on the extended reals -/

section Contents

variable (m : (ℓ : Loc nD τ sig) → Buf (Elt Ideal) ℓ) (ρ : Dev nD → PrngReg)

/-- The host's transpose of a 128 x 128 matrix exchanges rows and columns. -/
theorem transpose_eq (W : FVec Ideal S128x128 .f32) :
    transpose S128x128 [1, 0] W transposes_S128x128_S128x128_1_0 = transposed W := by
  funext i
  exact transpose_apply [1, 0] W transposes_S128x128_S128x128_1_0 i (ix2 (i 1) (i 0))
    (fun b => match b with | ⟨0, _⟩ => rfl | ⟨1, _⟩ => rfl)

/-- The host's reshape of a vector of 128 entries to one row lays it out as a row. -/
theorem reshape_eq (b : FVec Ideal S128 .f32) :
    shapeCast S1x128 b shapeCasts_S128_S1x128 = rowOf b := by
  funext i
  obtain ⟨u, q, rfl⟩ : ∃ (u : Fin 1) (q : Fin 128), i = ix2 u q := ⟨i 0, i 1, eq_ix2 i⟩
  exact shapeCast_a_1a_apply b shapeCasts_S128_S1x128 u q

/-! ### The first kernel's entry: after the first host stretch -/

theorem entry0_adjacency (c : Dev nD) : V1 (F := Ideal) m ρ c main_arg0 = m ((c : Thread nD τ).loc main_arg0) := by
  show StableHlo.after hostOps0 (W0 m ρ c) (Proc.devRef .tc main_arg0) = _
  after_results <;> rfl

theorem entry0_features (c : Dev nD) : V1 (F := Ideal) m ρ c main_arg1 = m ((c : Thread nD τ).loc main_arg1) := by
  show StableHlo.after hostOps0 (W0 m ρ c) (Proc.devRef .tc main_arg1) = _
  after_results <;> rfl

theorem entry0_weights (c : Dev nD) : V1 (F := Ideal) m ρ c main_v0 = transposed (m ((c : Thread nD τ).loc main_arg2)) := by
  refine Eq.trans ?_ (transpose_eq (m ((c : Thread nD τ).loc main_arg2)))
  show StableHlo.after hostOps0 (W0 m ρ c) (Proc.devRef .tc main_v0) = _
  after_results <;> rfl

theorem entry0_bias (c : Dev nD) : V1 (F := Ideal) m ρ c main_v1 = rowOf (m ((c : Thread nD τ).loc main_arg3)) := by
  refine Eq.trans ?_ (reshape_eq (m ((c : Thread nD τ).loc main_arg3)))
  show StableHlo.after hostOps0 (W0 m ρ c) (Proc.devRef .tc main_v1) = _
  after_results <;> rfl

/-- The first kernel's output array after its run: the rectified first layer of the launch arguments. -/
theorem hidden (c : Dev nD) :
    W2 (F := Ideal) m ρ c (Proc.devRef .tc main_v2)
      = relu (affine (M := 8192) (m ((c : Thread nD τ).loc main_arg0)) (m ((c : Thread nD τ).loc main_arg1)) (transposed (m ((c : Thread nD τ).loc main_arg2))) (rowOf (m ((c : Thread nD τ).loc main_arg3)))) := by
  refine (W2_arr m ρ c 4).trans ((array0 (V1 m ρ) c).trans ?_)
  rw [entry0_adjacency m ρ c, entry0_features m ρ c, entry0_weights m ρ c, entry0_bias m ρ c]

/-! ### The second kernel's entry: after the second host stretch -/

theorem entry1_adjacency (c : Dev nD) : V3 (F := Ideal) m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)

theorem entry1_features (c : Dev nD) :
    V3 (F := Ideal) m ρ c main_v2
      = relu (affine (M := 8192) (m ((c : Thread nD τ).loc main_arg0)) (m ((c : Thread nD τ).loc main_arg1)) (transposed (m ((c : Thread nD τ).loc main_arg2))) (rowOf (m ((c : Thread nD τ).loc main_arg3)))) := by
  refine Eq.trans ?_ (hidden m ρ c)
  show StableHlo.after hostOps1 (W2 m ρ c) (Proc.devRef .tc main_v2) = _
  after_results <;> rfl

/-- The second layer's weights and bias are still the launch arguments when the second host stretch reads them:
    neither the first host stretch nor the first kernel writes them. -/
theorem mid_weights (c : Dev nD) : W2 (F := Ideal) m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

theorem mid_bias (c : Dev nD) : W2 (F := Ideal) m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl

theorem entry1_weights (c : Dev nD) : V3 (F := Ideal) m ρ c main_v3 = transposed (m ((c : Thread nD τ).loc main_arg4)) := by
  refine Eq.trans ?_ (transpose_eq (m ((c : Thread nD τ).loc main_arg4)))
  refine Eq.trans ?_ (congrArg (fun W => transpose S128x128 [1, 0] W transposes_S128x128_S128x128_1_0) (mid_weights m ρ c))
  show StableHlo.after hostOps1 (W2 m ρ c) (Proc.devRef .tc main_v3) = _
  after_results <;> rfl

theorem entry1_bias (c : Dev nD) : V3 (F := Ideal) m ρ c main_v4 = rowOf (m ((c : Thread nD τ).loc main_arg5)) := by
  refine Eq.trans ?_ (reshape_eq (m ((c : Thread nD τ).loc main_arg5)))
  refine Eq.trans ?_ (congrArg (fun b => shapeCast S1x128 b shapeCasts_S128_S1x128) (mid_bias m ρ c))
  show StableHlo.after hostOps1 (W2 m ρ c) (Proc.devRef .tc main_v4) = _
  after_results <;> rfl

/-- The result buffer at the last boundary: the two-layer network of the six launch arguments. -/
theorem result_contents (c : Dev nD) :
    W4 (F := Ideal) m ρ c (Proc.devRef .tc main_v5)
      = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 4).trans ((array1 (V3 m ρ) c).trans ?_)
  rw [entry1_adjacency m ρ c, entry1_features m ρ c, entry1_weights m ρ c, entry1_bias m ρ c]
  rfl

/-- The kernel program's run on the extended reals: it terminates without a fault, its result is the two-layer
    network of its launch arguments, and its arguments are unchanged. -/
theorem run : θ_run defs (onTc (τ := τ) (main (F := Ideal))) ⟨m, fun _ => 0, ρ⟩ (fun r => ∀ c : Dev nD,
      r.2.mem ((c.tc : Thread nD τ).loc main_v5)
        = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_contents m ρ c), (h c).2⟩) (run_boundary m ρ)

end Contents

end Cert.Gcn.Kernel

end
-- ==== Proof.ReferenceValue.lean ====
/-
  The reference computes the two-layer network of Spec.lean.

  Its program is, per layer, two general dot products (rows of the left operand against columns of the right), a
  transposed weight matrix as the right operand of the second, and the bias vector broadcast first to one row and
  then down all rows; between the layers an entrywise maximum with a broadcast zero.  Read at an entry (r, c):
  a general dot product is the sum over the contracted coordinate, the transposed matrix at (l, c) is the matrix at
  (c, l), and the twice-broadcast bias at (r, c) is the bias at c.  That is the layer of Spec.lean, term for term.
-/
import proofs.«157281_g77017353552368_cont_sun_m_946_3_alg».proof.Proof.Gen.ReferenceIdeal.Read
import proofs.«157281_g77017353552368_cont_sun_m_946_3_alg».proof.Proof.Spec
import Idealize.ShloMosaic.Lib.Pipeline.Value
import Idealize.ShloMosaic.Lib.ValueIdx
import Idealize.ShloMosaic.PureOps.Ideal.Laws

noncomputable section

namespace Cert.Gcn.Reference

open Cert.ReferenceIdeal Cert.ReferenceIdeal.Gen Cert.ReferenceIdeal.Read Idealize.ShloMosaic Idealize.ShloMosaic.ValueIdx Cert.Lib.RowColumn Cert.Gcn

/-- The host's transpose of a 128 x 128 matrix exchanges rows and columns. -/
theorem transpose_eq (W : FVec Ideal S128x128 .f32) :
    transpose S128x128 [1, 0] W transposes_S128x128_S128x128_1_0 = transposed W := by
  funext i
  exact (val_main_v1_apply (F := Ideal) W i).trans
    (congrArg W (funext fun a => match a with | ⟨0, _⟩ => rfl | ⟨1, _⟩ => rfl))

/-- The bias vector broadcast to a row and then to all rows, at entry (r, c), is the bias at c. -/
theorem bias_apply (b : FVec Ideal S128 .f32) (i : S8192x128.Idx) :
    broadcastInDim S8192x128 ![0, 1] bcast_S1x128_S8192x128_0_1 (broadcastInDim S1x128 ![1] bcast_S128_S1x128_1 b) i
      = rowOf b (ix2 (0 : Fin 1) (i 1)) := by
  refine ((val_main_v4_apply (F := Ideal) b i).trans (val_main_v3_apply (F := Ideal) b _)).trans ?_
  exact congrArg b (funext fun a => match a with | ⟨0, _⟩ => rfl)

/-- The adjacency against the features: the host's first general dot product is the row-by-column product. -/
theorem dot_adjacency (A : FVec Ideal S8192x8192 .f32) (H : FVec Ideal S8192x128 .f32) :
    Host.dotGeneral dot_S8192x8192_S8192x128_S8192x128_1_0_0_1_n_n none A H
      = rowsTimes (M := 8192) (K := 8192) (N := 128) A H := by
  simp only [Host.dotGeneral]
  exact dotGeneral_eq_rowsTimes (M := 8192) (K := 8192) (N := 128) dot_S8192x8192_S8192x128_S8192x128_1_0_0_1_n_n rfl rfl
    lhs_main_v0_0 lhs_main_v0_1 rhs_main_v0_0 rhs_main_v0_1 none _ A H

/-- The support against the transposed weights: the host's second general dot product is the row-by-column product. -/
theorem dot_weights (S : FVec Ideal S8192x128 .f32) (Wt : FVec Ideal S128x128 .f32) :
    Host.dotGeneral dot_S8192x128_S128x128_S8192x128_1_0_0_1_n_n none S Wt
      = rowsTimes (M := 8192) (K := 128) (N := 128) S Wt := by
  simp only [Host.dotGeneral]
  exact dotGeneral_eq_rowsTimes (M := 8192) (K := 128) (N := 128) dot_S8192x128_S128x128_S8192x128_1_0_0_1_n_n rfl rfl
    lhs_main_v2_0 lhs_main_v2_1 rhs_main_v2_0 rhs_main_v2_1 none _ S Wt

/-- One layer of the reference, before its activation, is the layer of Spec.lean with the weights transposed and the
    bias as a row. -/
theorem layer_eq (A : FVec Ideal S8192x8192 .f32) (H : FVec Ideal S8192x128 .f32) (W : FVec Ideal S128x128 .f32)
    (b : FVec Ideal S128 .f32) :
    addf (Host.dotGeneral dot_S8192x128_S128x128_S8192x128_1_0_0_1_n_n none
        (Host.dotGeneral dot_S8192x8192_S8192x128_S8192x128_1_0_0_1_n_n none A H)
        (transpose S128x128 [1, 0] W transposes_S128x128_S128x128_1_0))
      (broadcastInDim S8192x128 ![0, 1] bcast_S1x128_S8192x128_0_1 (broadcastInDim S1x128 ![1] bcast_S128_S1x128_1 b))
      = affine (M := 8192) A H (transposed W) (rowOf b) := by
  rw [transpose_eq, dot_adjacency, dot_weights]
  funext i
  rw [addf_apply, bias_apply]
  rfl

/-- The reference's rectifier — the maximum with zero broadcast to the whole array — is `relu`. -/
theorem relu_eq (H : FVec Ideal S8192x128 .f32) :
    maximumf H (broadcastInDim S8192x128 ![] bcast_S_S8192x128 (constant (F := Ideal) S_ .f32 0x00000000#32)) = relu H := by
  funext i
  rw [maximumf_apply]
  refine congrArg (max (H i)) ?_
  exact (val_main_call0_v0_apply (F := Ideal) i).trans (val_main_call0_cst_apply (F := Ideal) _)

/-- The reference's result, as the run states it, is the two-layer network of its six arguments. -/
theorem result_eq (A : FVec Ideal S8192x8192 .f32) (X : FVec Ideal S8192x128 .f32) (W1 : FVec Ideal S128x128 .f32)
    (b1 : FVec Ideal S128 .f32) (W2 : FVec Ideal S128x128 .f32) (b2 : FVec Ideal S128 .f32) :
    addf (Host.dotGeneral dot_S8192x128_S128x128_S8192x128_1_0_0_1_n_n none (Host.dotGeneral dot_S8192x8192_S8192x128_S8192x128_1_0_0_1_n_n none A (maximumf (addf (Host.dotGeneral dot_S8192x128_S128x128_S8192x128_1_0_0_1_n_n none (Host.dotGeneral dot_S8192x8192_S8192x128_S8192x128_1_0_0_1_n_n none A X) (transpose S128x128 [1, 0] W1 transposes_S128x128_S128x128_1_0)) (broadcastInDim S8192x128 ![0, 1] bcast_S1x128_S8192x128_0_1 (broadcastInDim S1x128 ![1] bcast_S128_S1x128_1 b1))) (broadcastInDim S8192x128 ![] bcast_S_S8192x128 (constant S_ .f32 0x00000000#32)))) (transpose S128x128 [1, 0] W2 transposes_S128x128_S128x128_1_0)) (broadcastInDim S8192x128 ![0, 1] bcast_S1x128_S8192x128_0_1 (broadcastInDim S1x128 ![1] bcast_S128_S1x128_1 b2))
      = gcn A X W1 b1 W2 b2 := by
  rw [layer_eq A X W1 b1, relu_eq, layer_eq]
  rfl

end Cert.Gcn.Reference

end
-- ==== Proof.lean ====
/-
  A two-layer dense graph convolution, out = A relu(A X W1^T + b1) W2^T + b2, computed two ways.

  The kernel program runs one kernel per layer.  Each kernel walks the 8192 x 8192 adjacency A in 16 blocks of 512
  rows; a step multiplies its 512 rows of A by the whole feature array, multiplies the result by the transposed
  weights, adds the bias row, (first layer only) takes the maximum with zero, and writes the 512 x 128 block back.
  The reference forms the same products over the whole of A at once.

  On the extended reals the two are the same function of the six arguments, entry by entry, with no law needed
  beyond reading each operation at an entry: a matrix product into a zero accumulator and a general dot product are
  both the sum over the contracted coordinate; an entry of a layer depends on A only through its own row, so the
  layer of a block of rows is the block of rows of the layer; the 16 row blocks cover the output.  Sums are never
  reordered and no factor is moved across a sum, so no finiteness of the inputs is used: the precondition is needed
  by no step.

  Spec.lean states the network; ReferenceValue.lean shows the reference computes it; BlockValue.lean reads one
  kernel step; RegionArrays.lean goes from the 16 blocks to each kernel's whole output array; KernelRun.lean follows
  the arrays through the program's four segments.  The idealization rewrote no operation of the kernel program, so
  there is nothing to preserve.
-/
import proofs.«157281_g77017353552368_cont_sun_m_946_3_alg».proof.Defs
import proofs.«157281_g77017353552368_cont_sun_m_946_3_alg».proof.Proof.Gen.Kernel
import proofs.«157281_g77017353552368_cont_sun_m_946_3_alg».proof.Proof.Gen.Kernel.Skeleton
import proofs.«157281_g77017353552368_cont_sun_m_946_3_alg».proof.Proof.Gen.Kernel.Launch
import proofs.«157281_g77017353552368_cont_sun_m_946_3_alg».proof.Proof.Gen.Kernel.Points
import proofs.«157281_g77017353552368_cont_sun_m_946_3_alg».proof.Proof.Gen.Kernel.Frame
import proofs.«157281_g77017353552368_cont_sun_m_946_3_alg».proof.Proof.Gen.KernelIdeal
import proofs.«157281_g77017353552368_cont_sun_m_946_3_alg».proof.Proof.Gen.KernelIdeal.Skeleton
import proofs.«157281_g77017353552368_cont_sun_m_946_3_alg».proof.Proof.Gen.KernelIdeal.Launch
import proofs.«157281_g77017353552368_cont_sun_m_946_3_alg».proof.Proof.Gen.KernelIdeal.Points
import proofs.«157281_g77017353552368_cont_sun_m_946_3_alg».proof.Proof.Gen.KernelIdeal.Frame
import proofs.«157281_g77017353552368_cont_sun_m_946_3_alg».proof.Proof.Gen.ReferenceIdeal
import proofs.«157281_g77017353552368_cont_sun_m_946_3_alg».proof.Proof.Gen.ReferenceIdeal.Run
import proofs.«157281_g77017353552368_cont_sun_m_946_3_alg».proof.Proof.Gen.ReferenceIdeal.Read
import proofs.«157281_g77017353552368_cont_sun_m_946_3_alg».proof.Proof.Gen.Pre_finite_inputs
import proofs.«157281_g77017353552368_cont_sun_m_946_3_alg».proof.Proof.KernelRun
import proofs.«157281_g77017353552368_cont_sun_m_946_3_alg».proof.Proof.ReferenceValue
import Idealize.ShloMosaic.Adequacy
import Idealize.ShloMosaic.Init

noncomputable section

namespace Cert.Proof

open Idealize.ShloMosaic Idealize.SL.Sem

/-- The kernel program at the word level runs, and leaves its arguments as they were. -/
theorem frame_kernel : Cert.frame_Kernel := fun m ρ _ => Cert.Kernel.Gen.frame m ρ

/-- The kernel program on the extended reals runs, and leaves its arguments as they were. -/
theorem frame_kernel_ideal : Cert.frame_KernelIdeal := fun m ρ _ => Cert.KernelIdeal.Gen.frame m ρ

/-- The reference on the extended reals runs, and leaves its arguments as they were: its run, with the result
    forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end holding the two-layer network of the arguments: the kernel program by its run through two host
    stretches and two kernels, the reference by its run read operation by operation; the arguments agree, so the
    results are equal. -/
theorem algebraic : Cert.algebraic_KernelIdeal_ReferenceIdeal := by
  intro m ρ m' ρ' _ hagree
  refine ⟨_, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.Gcn.Reference.result_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
